-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128 : Shape := ⟨2, ![256, 128]⟩
abbrev S200000x128 : Shape := ⟨2, ![200000, 128]⟩
abbrev S_ : Shape := ⟨0, ![]⟩

class Facts : Prop where
  bcast_S_S256x128 : S_.BroadcastsInDim S256x128 (![] : Fin 0 → Fin S256x128.rank)
  reducesTo_S256x128_S_d0_1 : S256x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_

variable [Facts]

def fn {F : FTy → Type} [FloatOps F] (main_arg0 : FVec F S256x128 .f32) (main_arg1 : FVec F S256x128 .f32) (main_arg2 : FVec F S200000x128 .f32) : IVec S_ 1 :=
  let main_v0 : FVec F S256x128 .f32 := Host.absf main_arg0
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S200000x128 .f32 := Host.absf main_arg2
  let main_cst_2 : FVec F S_ .f32 := constant S_ .f32 0x7F800000#32
  let main_v10 : FVec F S200000x128 .f32 := broadcastInDim S200000x128 ![] bcast_S_S200000x128 main_cst_2
  let main_v11 : IVec S200000x128 1 := cmpf .olt main_v9 main_v10
  let main_c_3 : IVec S_ 1 := constantI S_ 1 1#1
  let main_v12 : IVec S_ 1 := (fun x v => Host.reduce IntOp.andi x v reducesTo_S200000x128_S_d0_1 h_S_) main_v11 main_c_3
  let main_v13 : IVec S_ 1 := andi main_v8 main_v12
  main_v13
-- ==== Kernel.lean ====
abbrev S256x128 : Shape := ⟨2, ![256, 128]⟩
abbrev S200000x128 : Shape := ⟨2, ![200000, 128]⟩
abbrev S_ : Shape := ⟨0, ![]⟩
abbrev S256 : Shape := ⟨1, ![256]⟩
abbrev S256x1 : Shape := ⟨2, ![256, 1]⟩
abbrev S512x128 : Shape := ⟨2, ![512, 128]⟩
abbrev S4000x128 : Shape := ⟨2, ![4000, 128]⟩
abbrev S4000 : Shape := ⟨1, ![4000]⟩
abbrev S4000x1 : Shape := ⟨2, ![4000, 1]⟩
abbrev S4000x512 : Shape := ⟨2, ![4000, 512]⟩
abbrev S4000x256 : Shape := ⟨2, ![4000, 256]⟩

abbrev nBuf : Space → Nat
  | .hbm => 26
  | .vmem => 7
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S200000x128, .f32⟩
  | .hbm, ⟨3, _⟩ => ⟨S256x128, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S256x1, .f32⟩
  | .hbm, ⟨11, _⟩ => ⟨S256x128, .f32⟩
  | .hbm, ⟨12, _⟩ => ⟨S256x128, .f32⟩
  | .hbm, ⟨13, _⟩ => ⟨S256x128, .f32⟩
  | .hbm, ⟨14, _⟩ => ⟨S_, .f32⟩
  | .hbm, ⟨15, _⟩ => ⟨S256, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x1, .f32⟩
  | .hbm, ⟨21, _⟩ => ⟨S256x128, .f32⟩
  | .hbm, ⟨22, _⟩ => ⟨S256x128, .f32⟩
  | .hbm, ⟨23, _⟩ => ⟨S512x128, .f32⟩
  | .hbm, ⟨24, _⟩ => ⟨S200000x128, .f32⟩
  | .hbm, ⟨25, _⟩ => ⟨S200000x128, .f32⟩
  | .local _ .vmem, ⟨0, _⟩ => ⟨S512x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S256x128_S256_d1 : S256x128.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x128_0_1 : S256x1.BroadcastsInDim S256x128 (![0, 1] : Fin 2 → Fin S256x128.rank)
  concatenates_S256x128_S256x128_S512x128_d0 : Shape.Concatenates [S256x128, S256x128] S512x128 0
  inb_S4000x128_S4000x128_0_0 : ∀ a, (![0, 0] : Fin 2 → Nat) a + S4000x128.size a ≤ S4000x128.size a
  h_S4000x128 : 0 < S4000x128.numel
  reduces_S4000x128_S4000 : S4000x128.Reduces [1] S4000
  shapeCasts_S4000_S4000x1 : S4000.ShapeCasts S4000x1
  broadcasts_S4000x1_S4000x128 : S4000x1.Broadcasts S4000x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S4000x512_o0_0_S4000x256 : S4000x512.Slices ![0, 0] S4000x256
  slices_S4000x512_o0_256_S4000x256 : S4000x512.Slices ![0, 256] S4000x256
  reduces_S4000x256_S4000 : S4000x256.Reduces [1] S4000
  natLt_1_32 : 1 < 32
  dot_S4000x128_S512x128_S4000x512_1_1_0_0_n_n_wf : DotDims.WF S4000x128 S512x128 S4000x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S200000x128.size a
  hwx0_1 : ∀ i : grid0.Coords, EltTy.bits .f32 = 32 ∨ (Rect.block (s := S200000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S200000x128.size a
  hwx0_2 : ∀ i : grid0.Coords, EltTy.bits .f32 = 32 ∨ (Rect.block (s := S200000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S200000x128.size a
  hwx0_3 : ∀ i : grid0.Coords, EltTy.bits .f32 = 32 ∨ (Rect.block (s := S200000x128) S4000x128.size (cc0_transform_3 i) (hinb0_3 i)).WholeWords (EltTy.packing .f32)

variable [Facts₀]

def dot_S4000x128_S512x128_S4000x512_1_1_0_0_n_n : DotDims S4000x128 S512x128 S4000x512 where
  lhsContracting := [1]
  rhsContracting := [1]
  lhsNonContracting := [0]
  rhsNonContracting := [0]
  lhsBatch := []
  rhsBatch := []
  wf := dot_S4000x128_S512x128_S4000x512_1_1_0_0_n_n_wf

abbrev win0_0 : Pipeline.Window sig grid0 :=
  Pipeline.Window.ofSpec (Memref.whole main_v16) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17_0) S4000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17_1) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x128 : Shape := ⟨2, ![256, 128]⟩
abbrev S200000x128 : Shape := ⟨2, ![200000, 128]⟩
abbrev S_ : Shape := ⟨0, ![]⟩
abbrev S200000 : Shape := ⟨1, ![200000]⟩
abbrev S200000x1 : Shape := ⟨2, ![200000, 1]⟩
abbrev S256 : Shape := ⟨1, ![256]⟩
abbrev S256x1 : Shape := ⟨2, ![256, 1]⟩
abbrev S200000x256 : Shape := ⟨2, ![200000, 256]⟩

abbrev nBuf : Space → Nat
  | .hbm => 60
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S200000x128, .f32⟩
  | .hbm, ⟨3, _⟩ => ⟨S200000x128, .f32⟩
  | .hbm, ⟨4, _⟩ => ⟨S_, .f32⟩
  | .hbm, ⟨5, _⟩ => ⟨S200000, .f32⟩
  | .hbm, ⟨6, _⟩ => ⟨S200000x1, .f32⟩
  | .hbm, ⟨7, _⟩ => ⟨S_, .f32⟩
  | .hbm, ⟨8, _⟩ => ⟨S200000x1, .f32⟩
  | .hbm, ⟨9, _⟩ => ⟨S200000x1, .f32⟩
  | .hbm, ⟨10, _⟩ => ⟨S200000x1, .f32⟩
  | .hbm, ⟨11, _⟩ => ⟨S200000x128, .f32⟩
  | .hbm, ⟨12, _⟩ => ⟨S200000x128, .f32⟩
  | .hbm, ⟨13, _⟩ => ⟨S256x128, .f32⟩
  | .hbm, ⟨14, _⟩ => ⟨S_, .f32⟩
  | .hbm, ⟨15, _⟩ => ⟨S256, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x1, .f32⟩
  | .hbm, ⟨21, _⟩ => ⟨S256x128, .f32⟩
  | .hbm, ⟨22, _⟩ => ⟨S256x128, .f32⟩
  | .hbm, ⟨23, _⟩ => ⟨S256x128, .f32⟩
  | .hbm, ⟨24, _⟩ => ⟨S_, .f32⟩
  | .hbm, ⟨25, _⟩ => ⟨S256, .f32⟩
  | .hbm, ⟨26, _⟩ => ⟨S256x1, .f32⟩
  | .hbm, ⟨27, _⟩ => ⟨S_, .f32⟩
  | .hbm, ⟨28, _⟩ => ⟨S256x1, .f32⟩
  | .hbm, ⟨29, _⟩ => ⟨S256x1, .f32⟩
  | .hbm, ⟨30, _⟩ => ⟨S256x1, .f32⟩
  | .hbm, ⟨31, _⟩ => ⟨S256x128, .f32⟩
  | .hbm, ⟨32, _⟩ => ⟨S256x128, .f32⟩
  | .hbm, ⟨33, _⟩ => ⟨S200000x256, .f32⟩
  | .hbm, ⟨34, _⟩ => ⟨S200000x256, .f32⟩
  | .hbm, ⟨35, _⟩ => ⟨S_, .f32⟩
  | .hbm, ⟨36, _⟩ => ⟨S200000x256, .f32⟩
  | .hbm, ⟨37, _⟩ => ⟨S200000x256, .i1⟩
  | .hbm, ⟨38, _⟩ => ⟨S_, .i1⟩
  | .hbm, ⟨39, _⟩ => ⟨S200000, .i1⟩
  | .hbm, ⟨40, _⟩ => ⟨S200000x256, .f32⟩
  | .hbm, ⟨41, _⟩ => ⟨S200000x256, .f32⟩
  | .hbm, ⟨42, _⟩ => ⟨S_, .f32⟩
  | .hbm, ⟨43, _⟩ => ⟨S200000x256, .f32⟩
  | .hbm, ⟨44, _⟩ => ⟨S200000x256, .i1⟩
  | .hbm, ⟨45, _⟩ => ⟨S200000x256, .i32⟩
  | .hbm, ⟨46, _⟩ => ⟨S_, .i32⟩
  | .hbm, ⟨47, _⟩ => ⟨S200000, .i32⟩
  | .hbm, ⟨48, _⟩ => ⟨S_, .i32⟩
  | .hbm, ⟨49, _⟩ => ⟨S_, .i32⟩
  | .hbm, ⟨50, _⟩ => ⟨S200000, .i32⟩
  | .hbm, ⟨51, _⟩ => ⟨S200000, .i32⟩
  | .hbm, ⟨52, _⟩ => ⟨S200000, .f32⟩
  | .hbm, ⟨53, _⟩ => ⟨S200000x1, .f32⟩
  | .hbm, ⟨54, _⟩ => ⟨S200000x128, .f32⟩
  | .hbm, ⟨55, _⟩ => ⟨S200000x128, .f32⟩
  | .hbm, ⟨56, _⟩ => ⟨S200000, .f32⟩
  | .hbm, ⟨57, _⟩ => ⟨S200000x1, .f32⟩
  | .hbm, ⟨58, _⟩ => ⟨S200000x128, .f32⟩
  | .hbm, ⟨59, _⟩ => ⟨S200000x128, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_7 : Ref sig .tc := ⟨.hbm, 46, rfl⟩
abbrev main_v34 : Ref sig .tc := ⟨.hbm, 47, rfl⟩
abbrev main_c_8 : Ref sig .tc := ⟨.hbm, 48, rfl⟩
abbrev main_call0_v0 : Ref sig .tc := ⟨.hbm, 49, rfl⟩
abbrev main_call0_v1 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]

class Facts₀ : Prop where
  reducesTo_S200000x128_S200000_d1 : S200000x128.ReducesTo [1] S200000
  h_S_ : 0 < S_.numel
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S200000x1_S200000x128_0_1 : S200000x1.BroadcastsInDim S200000x128 (![0, 1] : Fin 2 → Fin S200000x128.rank)
  reducesTo_S256x128_S256_d1 : S256x128.ReducesTo [1] S256
  bcast_S256_S256x1_0 : S256.BroadcastsInDim S256x1 (![0] : Fin 1 → Fin S256x1.rank)
  bcast_S_S256x1 : S_.BroadcastsInDim S256x1 (![] : Fin 0 → Fin S256x1.rank)
  bcast_S256x1_S256x128_0_1 : S256x1.BroadcastsInDim S256x128 (![0, 1] : Fin 2 → Fin S256x128.rank)
  bcast_S_S200000x256 : S_.BroadcastsInDim S200000x256 (![] : Fin 0 → Fin S200000x256.rank)
  reducesTo_S200000x256_S200000_d1 : S200000x256.ReducesTo [1] S200000
  natLt_1_32 : 1 < 32
  bcast_S_S200000 : S_.BroadcastsInDim S200000 (![] : Fin 0 → Fin S200000.rank)
  dot_S200000x128_S256x128_S200000x256_1_1_0_0_n_n_wf : DotDims.WF S200000x128 S256x128 S200000x256 [1] [1] [0] [0] [] []

variable [Facts₀]

def dot_S200000x128_S256x128_S200000x256_1_1_0_0_n_n : DotDims S200000x128 S256x128 S200000x256 where
  lhsContracting := [1]
  rhsContracting := [1]
  lhsNonContracting := [0]
  rhsNonContracting := [0]
  lhsBatch := []
  rhsBatch := []
  wf := dot_S200000x128_S256x128_S200000x256_1_1_0_0_n_n_wf

class Facts : Prop extends Facts₀ where

variable [Facts]
-- ==== Proof.Spec.lean ====
/-
  The two results, index by index, as functions of the input rows and of two tables of normalized prototypes.

  A row `ρ` of 128 numbers is scaled by the reciprocal of its length (its squared length kept at least `eps`), and its
  `loss` against row `p` of a table is minus the inner product of the scaled row with that table row. A table row is a
  HIT when the loss is at least the threshold. The first result multiplies each input row by the number of hits in the
  second table, or by `0` when the first table has a hit; the second result multiplies it by `1` when the first table
  has a hit and by `0` otherwise.

  The weights are then related to the encodings the two programs use: a one-bit word that says "some hit" read as a
  natural number or, widened to 32 bits, as a signed integer; the hit count as a 32-bit word selected against `0`, or
  as an extended real selected against `0`.
-/
import Idealize.ShloMosaic.PureOps.Ideal
import Idealize.ShloMosaic.PureOps.Ideal.Laws
import Idealize.ShloMosaic.Lib.ValueIdx

noncomputable section

namespace Candidates

open Idealize.ShloMosaic Idealize.ShloMosaic.ValueIdx

/-- The input rows: 200000 rows of 128 numbers. -/
abbrev Rows : Type := (⟨2, ![200000, 128]⟩ : Shape).Idx → EReal
/-- A table of 256 prototype rows of 128 numbers. -/
abbrev Table : Type := (⟨2, ![256, 128]⟩ : Shape).Idx → EReal

/-- The floor under a squared length. -/
abbrev eps : EReal := Ideal.ofBits .f32 0x2B8CBCCC#32
/-- The threshold a loss is compared with. -/
abbrev thr : EReal := Ideal.ofBits .f32 0x3E4CCCCD#32

/-- The reciprocal length of a row, its squared length kept at least `eps`. -/
def invLen (ρ : Fin 128 → EReal) : EReal := Ideal.rsqrt (max (∑ k, ρ k * ρ k) eps)

/-- Minus the inner product of the scaled row with row `p` of the table. -/
def loss (T : Fin 256 → Fin 128 → EReal) (ρ : Fin 128 → EReal) (p : Fin 256) : EReal :=
  -(∑ k, (ρ k * invLen ρ) * T p k)

/-- Row `p` of the table is a hit for `ρ`: the loss is at least the threshold (as the one-bit word of the comparison). -/
def hit (T : Fin 256 → Fin 128 → EReal) (ρ : Fin 128 → EReal) (p : Fin 256) : BitVec 1 :=
  Ideal.cmp .oge (loss T ρ p) thr

/-- How many rows of the table are hits. -/
def hits (T : Fin 256 → Fin 128 → EReal) (ρ : Fin 128 → EReal) : ℕ :=
  (Finset.univ.filter fun p => hit T ρ p = 1#1).card

/-- The weight of a row in the second result: `1` when the first table has a hit. -/
def wL (TL : Fin 256 → Fin 128 → EReal) (ρ : Fin 128 → EReal) : EReal :=
  if ∃ p, hit TL ρ p = 1#1 then 1 else 0

/-- The weight of a row in the first result: the number of hits in the second table, unless the first table has one. -/
def wU (TL TU : Fin 256 → Fin 128 → EReal) (ρ : Fin 128 → EReal) : EReal :=
  if ∃ p, hit TL ρ p = 1#1 then 0 else ((hits TU ρ : ℝ) : EReal)

/-- Row `n` of the inputs. -/
def rowOf (X : Rows) (n : Fin 200000) : Fin 128 → EReal := fun k => X (ix2 n k)
/-- A table by coordinates. -/
def tableOf (N : Table) : Fin 256 → Fin 128 → EReal := fun p k => N (ix2 p k)

/-- The second result: each input row times `wL`. -/
def resL (NL : Table) (X : Rows) : Rows :=
  fun i => X i * wL (tableOf NL) (rowOf X ⟨(i 0).val, idx2_lt0 i⟩)

/-- The first result: each input row times `wU`. -/
def resU (NL NU : Table) (X : Rows) : Rows :=
  fun i => X i * wU (tableOf NL) (tableOf NU) (rowOf X ⟨(i 0).val, idx2_lt0 i⟩)

/-! ## The weights from the programs' encodings -/

section Encodings
variable (TL TU : Fin 256 → Fin 128 → EReal) (ρ : Fin 128 → EReal)

/-- A one-bit "some hit" word read as a natural number is `wL`. -/
theorem wL_of_toNat (B : BitVec 1) (hB : B = 1#1 ↔ ∃ p, hit TL ρ p = 1#1) :
    ((B.toNat : ℝ) : EReal) = wL TL ρ := by
  unfold wL
  by_cases h : ∃ p, hit TL ρ p = 1#1
  · rw [if_pos h, hB.2 h]; simp
  · rw [if_neg h, eq_zero_of_ne_one (fun hb => h (hB.1 hb))]; simp

/-- The same word widened to 32 bits and read as a signed integer is `wL`. -/
theorem wL_of_toInt (B : BitVec 1) (hB : B = 1#1 ↔ ∃ p, hit TL ρ p = 1#1) :
    (((B.setWidth 32).toInt : ℝ) : EReal) = wL TL ρ := by
  unfold wL
  by_cases h : ∃ p, hit TL ρ p = 1#1
  · rw [if_pos h, hB.2 h]
    have : ((1#1 : BitVec 1).setWidth 32).toInt = 1 := by decide
    rw [this]; simp
  · rw [if_neg h, eq_zero_of_ne_one (fun hb => h (hB.1 hb))]
    have : ((0#1 : BitVec 1).setWidth 32).toInt = 0 := by decide
    rw [this]; simp

/-- The hit count as a 32-bit word, selected against the zero word by the "some hit" bit and read signed, is `wU`. -/
theorem wU_of_word (B : BitVec 1) (W : BitVec 32) (hB : B = 1#1 ↔ ∃ p, hit TL ρ p = 1#1)
    (hW : W.toInt = (hits TU ρ : ℤ)) :
    (((Scalar.select B (0#32 : BitVec 32) W).toInt : ℝ) : EReal) = wU TL TU ρ := by
  unfold wU
  by_cases h : ∃ p, hit TL ρ p = 1#1
  · rw [if_pos h, hB.2 h, select_one]
    have : (0#32 : BitVec 32).toInt = 0 := by decide
    rw [this]; simp
  · rw [if_neg h, eq_zero_of_ne_one (fun hb => h (hB.1 hb)), select_zero, hW]; simp

/-- The hit count as an extended real, selected against `0` by the "some hit" bit, is `wU`. -/
theorem wU_of_sum (B : BitVec 1) (S : EReal) (hB : B = 1#1 ↔ ∃ p, hit TL ρ p = 1#1)
    (hS : S = ((hits TU ρ : ℝ) : EReal)) :
    Scalar.select B (0 : EReal) S = wU TL TU ρ := by
  unfold wU
  by_cases h : ∃ p, hit TL ρ p = 1#1
  · rw [if_pos h, hB.2 h, select_one]
  · rw [if_neg h, eq_zero_of_ne_one (fun hb => h (hB.1 hb)), select_zero, hS]

end Encodings

end Candidates

end
-- ==== Proof.LibIndicatorFolds.lean ====
/-
  Folds of one-bit conditions over a finite index set.

  "Some condition holds" appears in two forms: as the `or` of the bits, and as a positive maximum of their 0/1
  indicators (taken from `⊥`, the value of `-∞`). "How many hold" appears in two forms as well: as the sum of the 0/1
  indicators on the extended reals, and as the 32-bit sum of the bits zero-extended to words, which does not wrap while
  there are fewer than 2^31 of them. Each form is reduced here to the plain statement about the set of indices whose
  bit is `1`: existence, and cardinality.
-/
import Mathlib
import Idealize.ShloMosaic.PureOps.Reduce

namespace IndicatorFolds

open Idealize.ShloMosaic

variable {ι : Type*} [DecidableEq ι]

/-- On one-bit words `or` is `1` exactly when an operand is. -/
theorem ori_eq_one_iff (x y : BitVec 1) : IntOp.ori x y = 1#1 ↔ x = 1#1 ∨ y = 1#1 := by
  rcases BitVec.eq_zero_or_eq_one x with rfl | rfl <;> rcases BitVec.eq_zero_or_eq_one y with rfl | rfl <;> decide

/-- The `or` of one-bit words over a finite set, from `0`, is `1` exactly when one of them is `1`. -/
theorem fold_ori_eq_one_iff (s : Finset ι) (c : ι → BitVec 1) :
    s.fold IntOp.ori 0#1 c = 1#1 ↔ ∃ p ∈ s, c p = 1#1 := by
  induction s using Finset.induction_on with
  | empty => simp
  | insert a s ha ih =>
    rw [Finset.fold_insert ha, ori_eq_one_iff, ih, Finset.exists_mem_insert]

/-- The maximum, from `⊥`, of the 0/1 indicators of the bits is positive exactly when one of the bits is `1`. -/
theorem zero_lt_fold_max_iff (s : Finset ι) (c : ι → BitVec 1) :
    (0 : EReal) < s.fold max ⊥ (fun p => if c p = 1#1 then (1 : EReal) else 0) ↔ ∃ p ∈ s, c p = 1#1 := by
  induction s using Finset.induction_on with
  | empty => simp
  | insert a s ha ih =>
    rw [Finset.fold_insert ha, lt_max_iff, ih, Finset.exists_mem_insert]
    refine or_congr ?_ Iff.rfl
    by_cases h : c a = 1#1
    · simp [h]
    · simp [h]

/-- The sum of the 0/1 indicators of the bits is the number of bits that are `1`. -/
theorem sum_indicator_eq_card (s : Finset ι) (c : ι → BitVec 1) :
    ∑ p ∈ s, (if c p = 1#1 then (1 : EReal) else 0) = (((s.filter fun p => c p = 1#1).card : ℝ) : EReal) := by
  induction s using Finset.induction_on with
  | empty => simp
  | insert a s ha ih =>
    rw [Finset.sum_insert ha, ih, Finset.filter_insert]
    by_cases h : c a = 1#1
    · rw [if_pos h, if_pos h, Finset.card_insert_of_notMem (fun hm => ha (Finset.mem_filter.1 hm).1)]
      rw [Nat.cast_succ, EReal.coe_add, EReal.coe_one, add_comm]
    · rw [if_neg h, if_neg h, zero_add]

/-- The 32-bit sum, from `0`, of the bits zero-extended to words is the word of the number of bits that are `1`. -/
theorem fold_addi_setWidth (s : Finset ι) (c : ι → BitVec 1) :
    s.fold IntOp.addi 0#32 (fun p => (c p).setWidth 32) = BitVec.ofNat 32 (s.filter fun p => c p = 1#1).card := by
  induction s using Finset.induction_on with
  | empty => simp
  | insert a s ha ih =>
    rw [Finset.fold_insert ha, ih, Finset.filter_insert]
    by_cases h : c a = 1#1
    · rw [if_pos h, Finset.card_insert_of_notMem (fun hm => ha (Finset.mem_filter.1 hm).1), h]
      show (1#1 : BitVec 1).setWidth 32 + BitVec.ofNat 32 _ = _
      rw [Nat.add_comm, BitVec.ofNat_add]
      rfl
    · rw [if_neg h]
      rcases BitVec.eq_zero_or_eq_one (c a) with h0 | h1
      · rw [h0]
        show (0#1 : BitVec 1).setWidth 32 + BitVec.ofNat 32 _ = _
        simp
      · exact absurd h1 h

/-- Read as a signed integer that word is the number itself, as long as the set has fewer than 2^31 elements. -/
theorem toInt_fold_addi_setWidth (s : Finset ι) (c : ι → BitVec 1) (hs : s.card < 2 ^ 31) :
    (s.fold IntOp.addi 0#32 (fun p => (c p).setWidth 32)).toInt = ((s.filter fun p => c p = 1#1).card : ℤ) := by
  have hk : (s.filter fun p => c p = 1#1).card < 2 ^ 31 := lt_of_le_of_lt (Finset.card_filter_le _ _) hs
  rw [fold_addi_setWidth, BitVec.toInt_eq_toNat_cond, BitVec.toNat_ofNat]
  have : (s.filter fun p => c p = 1#1).card % 2 ^ 32 = (s.filter fun p => c p = 1#1).card := Nat.mod_eq_of_lt (by omega)
  rw [this, if_pos (by omega)]

end IndicatorFolds
-- ==== Proof.KernelBody.lean ====
/-
  The kernel's body at one grid point, read at an index.

  The body loads a block `P0` of 4000 input rows and the table `P1` of 512 prototype rows (the first table's 256
  rows above the second's). Row `r` of the block is scaled by its reciprocal length; the 4000 × 512 array of losses is
  `0` minus the products of the scaled rows with the table's rows; its left half is compared with the threshold and
  "some hit in the row" is taken as "the maximum of the 0/1 indicators is positive"; its right half is compared
  likewise and the indicators are summed. Read at row `r` and lane `d`, the two stored blocks are the loaded element
  times the weights `wU` and `wL` of the specification, for the block's row and the two halves of the table.
-/
import proofs.«133422_j51101520888168_2_alg».proof.Proof.Gen.KernelIdeal.Skeleton
import proofs.«133422_j51101520888168_2_alg».proof.Proof.Spec
import proofs.«133422_j51101520888168_2_alg».proof.Proof.LibIndicatorFolds
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Candidates

/-! ## Layout: a column beside 128 lanes -/

/-- A [4000, 1] column spread over 128 lanes reads, at row `r` and any lane, the column at row `r`. -/
theorem lane_apply {α : Type} (u : S4000x1.Idx → α) (r : Fin 4000) (d : Fin 128) :
    broadcastTo S4000x128 u broadcasts_S4000x1_S4000x128 (ix2 r d) = u (ix2 r (0 : Fin 1)) :=
  broadcastTo_apply _ _ (ix2 r d) (ix2 r (0 : Fin 1)) (fun a => match a with
    | ⟨0, _⟩ => by show r.val = (if (4000 : Nat) = 1 then 0 else r.val); rw [if_neg (by decide)]
    | ⟨1, _⟩ => by show 0 = (if (1 : Nat) = 1 then 0 else d.val); rw [if_pos rfl])

/-- 4000 values recast as a [4000, 1] column read, at row `r`, the value at `r`. -/
theorem unitCol_apply {α : Type} (w : S4000.Idx → α) (r : Fin 4000) :
    shapeCast S4000x1 w shapeCasts_S4000_S4000x1 (ix2 r (0 : Fin 1)) = w (ix1 r) :=
  shapeCast_apply _ _ (ix2 r (0 : Fin 1)) (ix1 r) (by
    rw [Shape.rowMajor_val_one, Shape.rowMajor_val_two]; show r.val = r.val * 1 + 0; omega)

/-- Both together: 4000 values laid beside 128 lanes. -/
theorem col_apply {α : Type} (w : S4000.Idx → α) (r : Fin 4000) (d : Fin 128) :
    broadcastTo S4000x128 (shapeCast S4000x1 w shapeCasts_S4000_S4000x1) broadcasts_S4000x1_S4000x128 (ix2 r d) = w (ix1 r) :=
  (lane_apply _ r d).trans (unitCol_apply w r)

/-! ## The scaled rows -/

/-- The sum over the lanes of a [4000, 128] array, at row `r`. -/
theorem laneSum_apply (A : FVec Ideal S4000x128 .f32) (hacc : (0x00000000#32 : BitVec 32) = 0x00000000#32) (r : Fin 4000) :
    multiReduction .add [1] S4000 A 0x00000000#32 reduces_S4000x128_S4000 (.inl rfl) hacc (ix1 r) = ∑ k : Fin 128, A (ix2 r k) := by
  refine (Ideal.multiReduction_add_single A 0x00000000#32 reduces_S4000x128_S4000 (.inl rfl) hacc (ix1 r)).trans ?_
  refine Finset.sum_congr rfl fun k _ => ?_
  exact congrArg A (funext fun a => Fin.ext (by match a with | ⟨0, _⟩ => rfl | ⟨1, _⟩ => rfl))

/-- The block's rows, each scaled by its reciprocal length. -/
def scaled (P0 : FVec Ideal S4000x128 .f32) : FVec Ideal S4000x128 .f32 :=
  mulf P0 (broadcastTo S4000x128 (rsqrt (maximumf (shapeCast S4000x1
    (multiReduction .add [1] S4000 (mulf P0 P0) 0x00000000#32 reduces_S4000x128_S4000 (.inl rfl) rfl) shapeCasts_S4000_S4000x1)
    (broadcast S4000x1 (Scalar.ofBits (F := Ideal) .f32 0x2B8CBCCC#32)))) broadcasts_S4000x1_S4000x128)

theorem scaled_apply (P0 : FVec Ideal S4000x128 .f32) (r : Fin 4000) (k : Fin 128) :
    scaled P0 (ix2 r k) = P0 (ix2 r k) * invLen (fun k => P0 (ix2 r k)) := by
  unfold scaled
  rw [mulf_apply, lane_apply]
  show P0 (ix2 r k) * Ideal.rsqrt (max (shapeCast S4000x1 _ shapeCasts_S4000_S4000x1 (ix2 r (0 : Fin 1))) (Ideal.ofBits .f32 0x2B8CBCCC#32)) = _
  rw [unitCol_apply, laneSum_apply]
  rfl

/-! ## The losses -/

/-- The row coordinate of the left operand's index is the output's row. -/
theorem dot_lhs_row (i : S4000x512.Idx) (κ : dot_S4000x128_S512x128_S4000x512_1_1_0_0_n_n.contr.Idx) :
    (dot_S4000x128_S512x128_S4000x512_1_1_0_0_n_n.lhsIdx i κ 0).val = (i 0).val := by
  unfold DotDims.lhsIdx
  rw [dif_neg (show ¬(0 : Fin S4000x128.rank) ∈ dot_S4000x128_S512x128_S4000x512_1_1_0_0_n_n.lhsBatch by decide),
    dif_pos (show (0 : Fin S4000x128.rank) ∈ dot_S4000x128_S512x128_S4000x512_1_1_0_0_n_n.lhsNonContracting by decide)]
  rfl

/-- The row coordinate of the right operand's index is the output's column. -/
theorem dot_rhs_row (i : S4000x512.Idx) (κ : dot_S4000x128_S512x128_S4000x512_1_1_0_0_n_n.contr.Idx) :
    (dot_S4000x128_S512x128_S4000x512_1_1_0_0_n_n.rhsIdx i κ 0).val = (i 1).val := by
  unfold DotDims.rhsIdx
  rw [dif_neg (show ¬(0 : Fin S512x128.rank) ∈ dot_S4000x128_S512x128_S4000x512_1_1_0_0_n_n.rhsBatch by decide),
    dif_pos (show (0 : Fin S512x128.rank) ∈ dot_S4000x128_S512x128_S4000x512_1_1_0_0_n_n.rhsNonContracting by decide)]
  rfl

/-- The product of a [4000, 128] array with the transpose of a [512, 128] table, into zero: at `(r, q)` the inner product of
    row `r` with table row `q`. -/
theorem dot_apply (A : FVec Ideal S4000x128 .f32) (B : FVec Ideal S512x128 .f32) (r : Fin 4000) (q : Fin 512) :
    matmul dot_S4000x128_S512x128_S4000x512_1_1_0_0_n_n (some .fp32) A B (constant S4000x512 .f32 0x00000000#32) (ix2 r q)
      = ∑ k : Fin 128, A (ix2 r k) * B (ix2 q k) := by
  simp only [matmul]
  rw [Ideal.matmul_constant_zero_apply, ← Equiv.sum_comp (contrEquiv1 dot_S4000x128_S512x128_S4000x512_1_1_0_0_n_n 128 rfl rfl).symm]
  refine Finset.sum_congr rfl fun k _ => ?_
  have hk := contrEquiv1_symm_val dot_S4000x128_S512x128_S4000x512_1_1_0_0_n_n 128 rfl rfl k
  have el : dot_S4000x128_S512x128_S4000x512_1_1_0_0_n_n.lhsIdx (ix2 r q) ((contrEquiv1 dot_S4000x128_S512x128_S4000x512_1_1_0_0_n_n 128 rfl rfl).symm k) = ix2 r k :=
    funext fun a => Fin.ext (by
      match a with
      | ⟨0, _⟩ => exact dot_lhs_row _ _
      | ⟨1, _⟩ => exact (dot_S4000x128_S512x128_S4000x512_1_1_0_0_n_n.lhsIdx_val_of_single rfl _ _).trans hk)
  have er : dot_S4000x128_S512x128_S4000x512_1_1_0_0_n_n.rhsIdx (ix2 r q) ((contrEquiv1 dot_S4000x128_S512x128_S4000x512_1_1_0_0_n_n 128 rfl rfl).symm k) = ix2 q k :=
    funext fun a => Fin.ext (by
      match a with
      | ⟨0, _⟩ => exact dot_rhs_row _ _
      | ⟨1, _⟩ => exact (dot_S4000x128_S512x128_S4000x512_1_1_0_0_n_n.rhsIdx_val_of_single rfl _ _).trans hk)
  rw [el, er]

/-- The body's array of losses is `0` minus that product of the scaled rows with the table. -/
theorem pay2_eq (P0 : FVec Ideal S4000x128 .f32) (P1 : FVec Ideal S512x128 .f32) :
    k0_pay2 P0 P1 = subf (broadcast S4000x512 (Scalar.ofBits (F := Ideal) .f32 0x00000000#32))
      (matmul dot_S4000x128_S512x128_S4000x512_1_1_0_0_n_n (some .fp32) (scaled P0)
        (shapeCast S512x128 P1 shapeCasts_S512x128_S512x128) (constant S4000x512 .f32 0x00000000#32)) := rfl

/-- The loss of block row `r` against table row `q`. -/
theorem loss_apply (P0 : FVec Ideal S4000x128 .f32) (P1 : FVec Ideal S512x128 .f32) (r : Fin 4000) (q : Fin 512) :
    k0_pay2 P0 P1 (ix2 r q) = -(∑ k : Fin 128, (P0 (ix2 r k) * invLen (fun k => P0 (ix2 r k))) * P1 (ix2 q k)) := by
  rw [pay2_eq, subf_apply, dot_apply, shapeCast_self]
  show Ideal.ofBits .f32 0x00000000#32 - _ = _
  rw [Ideal.ofBits_zero_f32, zero_sub]
  refine congrArg Neg.neg (Finset.sum_congr rfl fun k _ => ?_)
  rw [scaled_apply]

/-! ## Hits -/

/-- The splat constants of the indicators and of the maximum's start. -/
theorem ofBits_one_f32 : Ideal.ofBits .f32 0x3F800000#32 = 1 := by
  simp [Ideal.ofBits, Ideal.ieee]
  rw [← EReal.coe_mul, ← EReal.coe_one]
  congr 1
  norm_num
theorem ofBits_negInf_f32 : Ideal.ofBits .f32 0xFF800000#32 = ⊥ := by
  simp [Ideal.ofBits, Ideal.ieee]

/-- The first table is rows 0–255 of the loaded table, the second rows 256–511. -/
def lowRows (P1 : FVec Ideal S512x128 .f32) : Fin 256 → Fin 128 → EReal :=
  fun p k => P1 (ix2 (⟨p.val, by have := p.isLt; omega⟩ : Fin 512) k)
def highRows (P1 : FVec Ideal S512x128 .f32) : Fin 256 → Fin 128 → EReal :=
  fun p k => P1 (ix2 (⟨256 + p.val, by have := p.isLt; omega⟩ : Fin 512) k)

/-- The left half of the losses compared with the threshold, and the right half. -/
def hitsLow (P0 : FVec Ideal S4000x128 .f32) (P1 : FVec Ideal S512x128 .f32) : IVec S4000x256 1 :=
  cmpf .oge (extractStridedSlice S4000x256 ![0, 0] (k0_pay2 P0 P1) slices_S4000x512_o0_0_S4000x256)
    (broadcast S4000x256 (Scalar.ofBits (F := Ideal) .f32 0x3E4CCCCD#32))
def hitsHigh (P0 : FVec Ideal S4000x128 .f32) (P1 : FVec Ideal S512x128 .f32) : IVec S4000x256 1 :=
  cmpf .oge (extractStridedSlice S4000x256 ![0, 256] (k0_pay2 P0 P1) slices_S4000x512_o0_256_S4000x256)
    (broadcast S4000x256 (Scalar.ofBits (F := Ideal) .f32 0x3E4CCCCD#32))

theorem hitsLow_apply (P0 : FVec Ideal S4000x128 .f32) (P1 : FVec Ideal S512x128 .f32) (r : Fin 4000) (p : Fin 256) :
    hitsLow P0 P1 (ix2 r p) = hit (lowRows P1) (fun k => P0 (ix2 r k)) p := by
  unfold hitsLow
  rw [cmpf_apply, extractStridedSlice_apply ![0, 0] _ _ (ix2 r p) (ix2 r (⟨p.val, by have := p.isLt; omega⟩ : Fin 512))
    (fun a => match a with
      | ⟨0, _⟩ => by show r.val = 0 + r.val; omega
      | ⟨1, _⟩ => by show p.val = 0 + p.val; omega), loss_apply]
  rfl

theorem hitsHigh_apply (P0 : FVec Ideal S4000x128 .f32) (P1 : FVec Ideal S512x128 .f32) (r : Fin 4000) (p : Fin 256) :
    hitsHigh P0 P1 (ix2 r p) = hit (highRows P1) (fun k => P0 (ix2 r k)) p := by
  unfold hitsHigh
  rw [cmpf_apply, extractStridedSlice_apply ![0, 256] _ _ (ix2 r p) (ix2 r (⟨256 + p.val, by have := p.isLt; omega⟩ : Fin 512))
    (fun a => match a with
      | ⟨0, _⟩ => by show r.val = 0 + r.val; omega
      | ⟨1, _⟩ => by show 256 + p.val = 256 + p.val; rfl), loss_apply]
  rfl

/-- The 0/1 indicator of an array of bits. -/
def ind (c : IVec S4000x256 1) : FVec Ideal S4000x256 .f32 :=
  select c (broadcast S4000x256 (Scalar.ofBits (F := Ideal) .f32 0x3F800000#32))
    (broadcast S4000x256 (Scalar.ofBits (F := Ideal) .f32 0x00000000#32))

theorem ind_apply (c : IVec S4000x256 1) (i : S4000x256.Idx) : ind c i = if c i = 1#1 then (1 : EReal) else 0 := by
  unfold ind
  rw [select_apply]
  show (if c i = 1#1 then Ideal.ofBits .f32 0x3F800000#32 else Ideal.ofBits .f32 0x00000000#32) = _
  rw [ofBits_one_f32, Ideal.ofBits_zero_f32]

/-- The maximum over the lanes of a [4000, 256] array, from `-∞`, at row `r`. -/
theorem laneMax_apply (A : FVec Ideal S4000x256 .f32) (hacc : (0xFF800000#32 : BitVec 32) = 0xFF800000#32) (r : Fin 4000) :
    multiReduction .maximumf [1] S4000 A 0xFF800000#32 reduces_S4000x256_S4000 (.inl rfl) hacc (ix1 r)
      = (Finset.univ : Finset (Fin 256)).fold max ⊥ (fun p => A (ix2 r p)) := by
  refine (Ideal.multiReduction_maximumf_single A 0xFF800000#32 reduces_S4000x256_S4000 (.inl rfl) hacc (ix1 r)).trans ?_
  show (Finset.univ : Finset (Fin 256)).fold max (Ideal.ofBits .f32 0xFF800000#32) _ = _
  rw [ofBits_negInf_f32]
  refine congrArg (fun f => (Finset.univ : Finset (Fin 256)).fold max ⊥ f) (funext fun p => ?_)
  exact congrArg A (funext fun a => Fin.ext (by match a with | ⟨0, _⟩ => rfl | ⟨1, _⟩ => rfl))

/-- The sum over the lanes of a [4000, 256] array, at row `r`. -/
theorem laneSum256_apply (A : FVec Ideal S4000x256 .f32) (hacc : (0x00000000#32 : BitVec 32) = 0x00000000#32) (r : Fin 4000) :
    multiReduction .add [1] S4000 A 0x00000000#32 reduces_S4000x256_S4000 (.inl rfl) hacc (ix1 r) = ∑ p : Fin 256, A (ix2 r p) := by
  refine (Ideal.multiReduction_add_single A 0x00000000#32 reduces_S4000x256_S4000 (.inl rfl) hacc (ix1 r)).trans ?_
  refine Finset.sum_congr rfl fun p _ => ?_
  exact congrArg A (funext fun a => Fin.ext (by match a with | ⟨0, _⟩ => rfl | ⟨1, _⟩ => rfl))

theorem ofBool_decide_eq_one (P : Prop) [Decidable P] : BitVec.ofBool (decide P) = 1#1 ↔ P := by
  by_cases h : P <;> simp [h]

/-- The body's "some hit" bits, and its selected counts. -/
theorem pay3_eq (P0 : FVec Ideal S4000x128 .f32) (P1 : FVec Ideal S512x128 .f32) :
    k0_pay3 (F := Ideal) P0 P1 = cmpf .ogt (multiReduction .maximumf [1] S4000 (ind (hitsLow P0 P1)) 0xFF800000#32 reduces_S4000x256_S4000 (.inl rfl) rfl)
      (broadcast S4000 (Scalar.ofBits (F := Ideal) .f32 0x00000000#32)) := rfl
theorem pay4_eq (P0 : FVec Ideal S4000x128 .f32) (P1 : FVec Ideal S512x128 .f32) :
    k0_pay4 (F := Ideal) P0 P1 = select (k0_pay3 (F := Ideal) P0 P1) (broadcast S4000 (Scalar.ofBits (F := Ideal) .f32 0x00000000#32))
      (multiReduction .add [1] S4000 (ind (hitsHigh P0 P1)) 0x00000000#32 reduces_S4000x256_S4000 (.inl rfl) rfl) := rfl

/-- Row `r`'s bit is `1` exactly when the first table has a hit for the row. -/
theorem any_apply (P0 : FVec Ideal S4000x128 .f32) (P1 : FVec Ideal S512x128 .f32) (r : Fin 4000) :
    k0_pay3 (F := Ideal) P0 P1 (ix1 r) = 1#1 ↔ ∃ p, hit (lowRows P1) (fun k => P0 (ix2 r k)) p = 1#1 := by
  rw [pay3_eq, cmpf_apply, laneMax_apply]
  show BitVec.ofBool (decide (Ideal.ofBits .f32 0x00000000#32 < _)) = 1#1 ↔ _
  refine (ofBool_decide_eq_one _).trans ?_
  rw [Ideal.ofBits_zero_f32]
  simp only [ind_apply, hitsLow_apply]
  rw [IndicatorFolds.zero_lt_fold_max_iff]
  simp

/-- Row `r`'s sum of indicators over the right half is the number of hits in the second table. -/
theorem count_apply (P0 : FVec Ideal S4000x128 .f32) (P1 : FVec Ideal S512x128 .f32) (r : Fin 4000) :
    multiReduction .add [1] S4000 (ind (hitsHigh P0 P1)) 0x00000000#32 reduces_S4000x256_S4000 (.inl rfl) rfl (ix1 r)
      = ((hits (highRows P1) (fun k => P0 (ix2 r k)) : ℝ) : EReal) := by
  rw [laneSum256_apply]
  simp only [ind_apply, hitsHigh_apply]
  exact IndicatorFolds.sum_indicator_eq_card Finset.univ _

/-- The selected count at row `r` is the row's weight in the first result. -/
theorem pay4_apply (P0 : FVec Ideal S4000x128 .f32) (P1 : FVec Ideal S512x128 .f32) (r : Fin 4000) :
    k0_pay4 (F := Ideal) P0 P1 (ix1 r) = wU (lowRows P1) (highRows P1) (fun k => P0 (ix2 r k)) := by
  rw [pay4_eq, select_apply]
  show Scalar.select (k0_pay3 (F := Ideal) P0 P1 (ix1 r)) (Ideal.ofBits .f32 0x00000000#32) _ = _
  rw [Ideal.ofBits_zero_f32]
  exact wU_of_sum _ _ _ _ _ (any_apply P0 P1 r) (count_apply P0 P1 r)

/-! ## The two stored blocks -/

theorem pay1_eq (P0 : FVec Ideal S4000x128 .f32) (w : FVec Ideal S4000 .f32) :
    k0_pay1 (F := Ideal) P0 w = mulf P0 (broadcastTo S4000x128 (shapeCast S4000x1 w shapeCasts_S4000_S4000x1) broadcasts_S4000x1_S4000x128) := rfl
theorem pay5_eq (P0 : FVec Ideal S4000x128 .f32) (P1 : FVec Ideal S512x128 .f32) :
    k0_pay5 (F := Ideal) P0 P1 = mulf P0 (broadcastTo S4000x128 (shapeCast S4000x1 (sitofp .f32 (extui 32 (k0_pay3 (F := Ideal) P0 P1) natLt_1_32))
      shapeCasts_S4000_S4000x1) broadcasts_S4000x1_S4000x128) := rfl

/-- The block stored to the first result, at row `r` and lane `d`. -/
theorem storedU_apply (P0 : FVec Ideal S4000x128 .f32) (P1 : FVec Ideal S512x128 .f32) (r : Fin 4000) (d : Fin 128) :
    k0_pay1 (F := Ideal) P0 (k0_pay4 (F := Ideal) P0 P1) (ix2 r d) = P0 (ix2 r d) * wU (lowRows P1) (highRows P1) (fun k => P0 (ix2 r k)) := by
  rw [pay1_eq, mulf_apply, col_apply, pay4_apply]

/-- The block stored to the second result, at row `r` and lane `d`. -/
theorem storedL_apply (P0 : FVec Ideal S4000x128 .f32) (P1 : FVec Ideal S512x128 .f32) (r : Fin 4000) (d : Fin 128) :
    k0_pay5 (F := Ideal) P0 P1 (ix2 r d) = P0 (ix2 r d) * wL (lowRows P1) (fun k => P0 (ix2 r k)) := by
  rw [pay5_eq, mulf_apply, col_apply]
  show P0 (ix2 r d) * ((((k0_pay3 (F := Ideal) P0 P1 (ix1 r)).setWidth 32).toInt : ℝ) : EReal) = _
  rw [wL_of_toInt _ _ _ (any_apply P0 P1 r)]

end Cert.KernelIdeal.Body

end
-- ==== Proof.KernelArray.lean ====
/-
  From the blocks the grid points write back to the two result arrays.

  The grid has 50 points; point `t` loads rows `4000 t … 4000 t + 3999` of the inputs and the whole table, and writes
  back the same rows of each result. The table the region finds is the two normalized prototype tables one above the
  other, so its rows 0–255 are the first table and its rows 256–511 the second. Hence what point `t` writes back is
  block `t` of the specification's `resU` / `resL` of the normalized tables and the inputs; the 50 blocks cover the
  arrays, so each array ends holding that function.
-/
import proofs.«133422_j51101520888168_2_alg».proof.Proof.Gen.KernelIdeal.Frame
import proofs.«133422_j51101520888168_2_alg».proof.Proof.KernelBody
import Idealize.ShloMosaic.Lib.Pipeline.Value
import Idealize.ShloMosaic.Lib.StableHlo.Run

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx Idealize.ShloMosaic.StableHlo Candidates Cert.KernelIdeal.Body
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The table the region finds -/

/-- A table of prototypes with each row scaled by its reciprocal length: what the host computes before the region. -/
def normRows (A : FVec Ideal S256x128 .f32) : FVec Ideal S256x128 .f32 :=
  mulf A (broadcastInDim S256x128 ![0, 1] bcast_S256x1_S256x128_0_1 (Host.rsqrt (F := Ideal) (maximumf
    (broadcastInDim S256x1 ![0] bcast_S256_S256x1_0
      (Host.reduceAdd (F := Ideal) (mulf A A) (constant (F := Ideal) S_ .f32 0x00000000#32) reducesTo_S256x128_S256_d1 h_S_))
    (broadcastInDim S256x1 ![] bcast_S_S256x1 (constant (F := Ideal) S_ .f32 0x2B8CBCCC#32)))))

/-- The first and second normalized tables and the inputs, as the specification's arrays. -/
def NL (c : Dev nD) : Candidates.Table := normRows (m ((c : Thread nD τ).loc main_arg0))
def NU (c : Dev nD) : Candidates.Table := normRows (m ((c : Thread nD τ).loc main_arg1))
def X (c : Dev nD) : Candidates.Rows := m ((c : Thread nD τ).loc main_arg2)

/-- The 512-row table is the first normalized table above the second. -/
theorem table_eq (c : Dev nD) : (V m c main_v16 : S512x128.Idx → EReal) =
    concatenate S512x128 0 [⟨S256x128, NL m c⟩, ⟨S256x128, NU m c⟩] concatenates_S256x128_S256x128_S512x128_d0 := by
  dsimp only [Gen.V, Gen.hostOps0]
  after_results
  rfl

/-! ## The printed index maps over the grid -/

theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 50 := by
  have h : t.val < grid0.N := t.isLt
  rw [N_0] at h; exact h

/-- Row `r` of point `t`'s block is row `4000 t + r` of the array. -/
def rowAt (t : Fin cfg0.N) (r : Fin 4000) : Fin 200000 := ⟨t.val * 4000 + r.val, by have := t_lt t; have := r.isLt; omega⟩

theorem emb1_eq (t : Fin cfg0.N) (r : Fin 4000) (k : Fin 128) :
    ((cfg0.win 1).blk t).view.emb (ix2 r k) = ix2 (rowAt t r) k := by
  obtain ⟨-, -, e0, e1, -, -, -, -⟩ := idx_facts t
  funext a; apply Fin.ext
  match a with
  | ⟨0, _⟩ => show win0_1.index t (0 : Fin 2) * 4000 + 1 * r.val = t.val * 4000 + r.val; rw [e0]; omega
  | ⟨1, _⟩ => show win0_1.index t (1 : Fin 2) * 128 + 1 * k.val = k.val; rw [e1]; omega

theorem emb2_eq (t : Fin cfg0.N) (r : Fin 4000) (k : Fin 128) :
    ((cfg0.win 2).blk t).view.emb (ix2 r k) = ix2 (rowAt t r) k := by
  obtain ⟨-, -, -, -, e0, e1, -, -⟩ := idx_facts t
  funext a; apply Fin.ext
  match a with
  | ⟨0, _⟩ => show win0_2.index t (0 : Fin 2) * 4000 + 1 * r.val = t.val * 4000 + r.val; rw [e0]; omega
  | ⟨1, _⟩ => show win0_2.index t (1 : Fin 2) * 128 + 1 * k.val = k.val; rw [e1]; omega

theorem emb3_eq (t : Fin cfg0.N) (r : Fin 4000) (k : Fin 128) :
    ((cfg0.win 3).blk t).view.emb (ix2 r k) = ix2 (rowAt t r) k := by
  obtain ⟨-, -, -, -, -, -, e0, e1⟩ := idx_facts t
  funext a; apply Fin.ext
  match a with
  | ⟨0, _⟩ => show win0_3.index t (0 : Fin 2) * 4000 + 1 * r.val = t.val * 4000 + r.val; rw [e0]; omega
  | ⟨1, _⟩ => show win0_3.index t (1 : Fin 2) * 128 + 1 * k.val = k.val; rw [e1]; omega

theorem emb0_eq (t : Fin cfg0.N) (q : Fin 512) (k : Fin 128) :
    ((cfg0.win 0).blk t).view.emb (ix2 q k) = ix2 q k := by
  obtain ⟨e0, e1, -, -, -, -, -, -⟩ := idx_facts t
  funext a; apply Fin.ext
  match a with
  | ⟨0, _⟩ => show win0_0.index t (0 : Fin 2) * 512 + 1 * q.val = q.val; rw [e0]; omega
  | ⟨1, _⟩ => show win0_0.index t (1 : Fin 2) * 128 + 1 * k.val = k.val; rw [e1]; omega

/-! ## The input blocks at a point -/

/-- The inputs' block at point `t`, at row `r`: row `4000 t + r` of the inputs. -/
theorem iblk1_apply (c : Dev nD) (t : Fin cfg0.N) (r : Fin 4000) (k : Fin 128) :
    iblk m c 1 t (ix2 r k) = X m c (ix2 (rowAt t r) k) := by
  show V m c main_arg2 (((cfg0.win 1).blk t).view.emb (ix2 r k)) = _
  rw [emb1_eq, V_main_arg2]
  rfl

/-- The table's block at any point is the whole table. -/
theorem iblk0_apply (c : Dev nD) (t : Fin cfg0.N) (q : Fin 512) (k : Fin 128) :
    iblk m c 0 t (ix2 q k) = (V m c main_v16 : S512x128.Idx → EReal) (ix2 q k) := by
  show V m c main_v16 (((cfg0.win 0).blk t).view.emb (ix2 q k)) = _
  rw [emb0_eq]

theorem lowRows_eq (c : Dev nD) (t : Fin cfg0.N) : lowRows (iblk m c 0 t) = tableOf (NL m c) := by
  funext p k
  show iblk m c 0 t (ix2 (⟨p.val, _⟩ : Fin 512) k) = NL m c (ix2 p k)
  rw [iblk0_apply, table_eq]
  exact concatenate_pair_apply_left (0 : Fin 2) (NL m c) (NU m c) concatenates_S256x128_S256x128_S512x128_d0
    (ix2 (⟨p.val, by have := p.isLt; omega⟩ : Fin 512) k) rfl (ix2 p k) (fun b => match b with
    | ⟨0, _⟩ => rfl
    | ⟨1, _⟩ => rfl)

theorem highRows_eq (c : Dev nD) (t : Fin cfg0.N) : highRows (iblk m c 0 t) = tableOf (NU m c) := by
  funext p k
  show iblk m c 0 t (ix2 (⟨256 + p.val, _⟩ : Fin 512) k) = NU m c (ix2 p k)
  rw [iblk0_apply, table_eq]
  exact concatenate_pair_apply_right (0 : Fin 2) (NL m c) (NU m c) concatenates_S256x128_S256x128_S512x128_d0
    (ix2 (⟨256 + p.val, by have := p.isLt; omega⟩ : Fin 512) k) rfl rfl (ix2 p k) (fun b => match b with
    | ⟨0, _⟩ => fun h => absurd rfl h
    | ⟨1, _⟩ => fun _ => rfl) (by show p.val + 256 = 256 + p.val; omega)

theorem row_eq (c : Dev nD) (t : Fin cfg0.N) (r : Fin 4000) :
    (fun k => iblk m c 1 t (ix2 r k)) = rowOf (X m c) (rowAt t r) := by
  funext k; exact iblk1_apply m c t r k

/-! ## What a point writes back -/

theorem flushedU_eq (c : Dev nD) (t : Fin cfg0.N) :
    (dats m 0 c).flushed 2 t = ((cfg0.win 2).blk t).view.read (Elt Ideal) (resU (NL m c) (NU m c) (X m c)) := by
  show (cfg0.win 2).cut (grid0.coords t) ((dats m 0 c).after 2 t) = _
  rw [after0_2]
  unfold out0_2
  rw [View.canon_unit_zero hz]
  simp only [View.ld_unit_zero (S := S4000x128) hz, View.ld_unit_zero (S := S512x128) hz]
  funext j
  obtain ⟨r, d, rfl⟩ : ∃ (r : Fin 4000) (d : Fin 128), j = ix2 r d := ⟨j 0, j 1, eq_ix2 j⟩
  show k0_pay1 (F := Ideal) (iblk m c 1 t) (k0_pay4 (F := Ideal) (iblk m c 1 t) (iblk m c 0 t)) (ix2 r d)
    = resU (NL m c) (NU m c) (X m c) (((cfg0.win 2).blk t).view.emb (ix2 r d))
  refine (storedU_apply (iblk m c 1 t) (iblk m c 0 t) r d).trans ?_
  rw [lowRows_eq, highRows_eq, row_eq, iblk1_apply, emb2_eq]
  rfl

theorem flushedL_eq (c : Dev nD) (t : Fin cfg0.N) :
    (dats m 0 c).flushed 3 t = ((cfg0.win 3).blk t).view.read (Elt Ideal) (resL (NL m c) (X m c)) := by
  show (cfg0.win 3).cut (grid0.coords t) ((dats m 0 c).after 3 t) = _
  rw [after0_3]
  unfold out0_3
  rw [View.canon_unit_zero hz]
  simp only [View.ld_unit_zero (S := S4000x128) hz, View.ld_unit_zero (S := S512x128) hz]
  funext j
  obtain ⟨r, d, rfl⟩ : ∃ (r : Fin 4000) (d : Fin 128), j = ix2 r d := ⟨j 0, j 1, eq_ix2 j⟩
  show k0_pay5 (F := Ideal) (iblk m c 1 t) (iblk m c 0 t) (ix2 r d)
    = resL (NL m c) (X m c) (((cfg0.win 3).blk t).view.emb (ix2 r d))
  refine (storedL_apply (iblk m c 1 t) (iblk m c 0 t) r d).trans ?_
  rw [lowRows_eq, row_eq, iblk1_apply, emb3_eq]
  rfl

/-! ## The blocks cover the arrays -/

theorem mem_blk2 (t : Fin cfg0.N) (i : S200000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v17_0).slice (win0_2.rect t)).set ↔ _
  rw [View.set_slice_whole, Rect.mem_set_unit]
  exact Iff.rfl

theorem mem_blk3 (t : Fin cfg0.N) (i : S200000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v17_1).slice (win0_3.rect t)).set ↔ _
  rw [View.set_slice_whole, Rect.mem_set_unit]
  exact Iff.rfl

/-- The point whose block holds row `n`: `n / 4000`. -/
def pointOf (i : S200000x128.Idx) : Fin cfg0.N :=
  ⟨(i 0).val / 4000, by show _ < grid0.N; rw [N_0]; have : (i 0).val < 200000 := (i 0).isLt; omega⟩

theorem cover2 (i : S200000x128.Idx) : ∃ t : Fin cfg0.N, (cfg0.win 2).flush t = true ∧ i ∈ ((cfg0.win 2).blk t).view.set := by
  have hi0 : (i 0).val < 200000 := (i 0).isLt
  have hi1 : (i 1).val < 128 := (i 1).isLt
  refine ⟨pointOf i, flush0_2 _, ?_⟩
  obtain ⟨-, -, -, -, e0, e1, -, -⟩ := idx_facts (pointOf i)
  have hv : (pointOf i).val = (i 0).val / 4000 := rfl
  rw [mem_blk2]
  intro a
  match a with
  | ⟨0, _⟩ => show win0_2.index (pointOf i) (0 : Fin 2) * 4000 ≤ (i 0).val ∧ (i 0).val < win0_2.index (pointOf i) (0 : Fin 2) * 4000 + 4000; rw [e0, hv]; omega
  | ⟨1, _⟩ => show win0_2.index (pointOf i) (1 : Fin 2) * 128 ≤ (i 1).val ∧ (i 1).val < win0_2.index (pointOf i) (1 : Fin 2) * 128 + 128; rw [e1]; omega

theorem cover3 (i : S200000x128.Idx) : ∃ t : Fin cfg0.N, (cfg0.win 3).flush t = true ∧ i ∈ ((cfg0.win 3).blk t).view.set := by
  have hi0 : (i 0).val < 200000 := (i 0).isLt
  have hi1 : (i 1).val < 128 := (i 1).isLt
  refine ⟨pointOf i, flush0_3 _, ?_⟩
  obtain ⟨-, -, -, -, -, -, e0, e1⟩ := idx_facts (pointOf i)
  have hv : (pointOf i).val = (i 0).val / 4000 := rfl
  rw [mem_blk3]
  intro a
  match a with
  | ⟨0, _⟩ => show win0_3.index (pointOf i) (0 : Fin 2) * 4000 ≤ (i 0).val ∧ (i 0).val < win0_3.index (pointOf i) (0 : Fin 2) * 4000 + 4000; rw [e0, hv]; omega
  | ⟨1, _⟩ => show win0_3.index (pointOf i) (1 : Fin 2) * 128 ≤ (i 1).val ∧ (i 1).val < win0_3.index (pointOf i) (1 : Fin 2) * 128 + 128; rw [e1]; omega

/-! ## The arrays after the run -/

theorem finalU (c : Dev nD) : (dats m 0 c).arrAt 2 cfg0.N = resU (NL m c) (NU m c) (X m c) :=
  (dats m 0 c).arrAt_eq_of_cover 2 (resU (NL m c) (NU m c) (X m c)) (fun t _ => flushedU_eq m c t) cover2

theorem finalL (c : Dev nD) : (dats m 0 c).arrAt 3 cfg0.N = resL (NL m c) (X m c) :=
  (dats m 0 c).arrAt_eq_of_cover 3 (resL (NL m c) (X m c)) (fun t _ => flushedL_eq m c t) cover3

/-- Every weakly fair execution of the kernel's program ends with the first result at `resU` and the second at `resL` of the
    normalized tables and the inputs, the arguments unchanged. -/
theorem run : θ_run defs (onTc (τ := τ) (main (F := Ideal))) ⟨m, fun _ => 0, ρ⟩ fun r => ∀ c : Dev nD,
      r.2.mem ((c : Thread nD τ).loc main_v17_0) = resU (NL m c) (NU m c) (X m c)
      ∧ r.2.mem ((c : Thread nD τ).loc main_v17_1) = resL (NL m c) (X m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (finalU m c),
      ((h c).1 3).trans (finalL m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c)))⟩)
    (run_main m ρ)

end Cert.KernelIdeal.Arrays

end
-- ==== Proof.RefValue.lean ====
/-
  The reference's two results are the specification's `resU` and `resL` of the two tables the reference normalizes and
  of the inputs.

  The reference scales every input row by its reciprocal length (its sum of squares starts from `0`), takes minus the
  products with each normalized table, compares with the threshold, and then: "some hit in the first table" is the `or`
  of the row's bits; the number of hits in the second table is the 32-bit sum of the bits widened to words, replaced by
  `0` when the first table has a hit, and converted to a float; each input row is multiplied by the converted bit, and
  by the converted count.
-/
import proofs.«133422_j51101520888168_2_alg».proof.Proof.ReadP
import proofs.«133422_j51101520888168_2_alg».proof.Proof.Spec
import proofs.«133422_j51101520888168_2_alg».proof.Proof.LibIndicatorFolds
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.ReadP
open Idealize.ShloMosaic Idealize.ShloMosaic.ValueIdx Candidates

variable (x0 x1 : (⟨S256x128, .f32⟩ : BufTy).Contents (Elt Ideal)) (x2 : (⟨S200000x128, .f32⟩ : BufTy).Contents (Elt Ideal))

/-! ## The scaled rows and the hits -/

theorem row_idx (n : Fin 200000) (k k' : Fin 128) :
    idx_main_v1 (idx_main_v2 (idx_main_v6 (ix2 n k))) k' = ix2 n k' :=
  funext fun a => Fin.ext (by match a with | ⟨0, _⟩ => rfl | ⟨1, _⟩ => rfl)

/-- Row `n` of the inputs scaled by its reciprocal length, at lane `k`. -/
theorem scaled_apply (n : Fin 200000) (k : Fin 128) :
    val_main_v7 (F := Ideal) x2 (ix2 n k) = x2 (ix2 n k) * invLen (rowOf x2 n) := by
  rw [val_main_v7_apply, val_main_v6_apply, val_main_v5_apply, val_main_v4_apply, val_main_v2_apply, val_main_v1_apply,
    val_main_v3_apply, val_main_cst_0_apply, val_main_cst_apply]
  simp only [val_main_v0_apply, row_idx, Ideal.mulf_def, Ideal.hostUnary_rsqrt_def, Ideal.maximumf_def, Ideal.ofBits_def,
    Ideal.ofBits_zero_f32, zero_add]
  rfl

theorem lidx24 (n : Fin 200000) (p : Fin 256) (k : Fin 128) : lidx_main_v24 (ix2 n p) k = ix2 n k :=
  funext fun a => Fin.ext (by match a with | ⟨0, _⟩ => rfl | ⟨1, _⟩ => rfl)
theorem ridx24 (n : Fin 200000) (p : Fin 256) (k : Fin 128) : ridx_main_v24 (ix2 n p) k = ix2 p k :=
  funext fun a => Fin.ext (by match a with | ⟨0, _⟩ => rfl | ⟨1, _⟩ => rfl)
theorem lidx29 (n : Fin 200000) (p : Fin 256) (k : Fin 128) : lidx_main_v29 (ix2 n p) k = ix2 n k :=
  funext fun a => Fin.ext (by match a with | ⟨0, _⟩ => rfl | ⟨1, _⟩ => rfl)
theorem ridx29 (n : Fin 200000) (p : Fin 256) (k : Fin 128) : ridx_main_v29 (ix2 n p) k = ix2 p k :=
  funext fun a => Fin.ext (by match a with | ⟨0, _⟩ => rfl | ⟨1, _⟩ => rfl)

/-- The compared loss of row `n` against row `p` of the first normalized table is the specification's hit bit. -/
theorem hitL_apply (n : Fin 200000) (p : Fin 256) :
    val_main_v27 (F := Ideal) x0 x2 (ix2 n p) = hit (tableOf (val_main_v15 (F := Ideal) x0)) (rowOf x2 n) p := by
  rw [val_main_v27_apply, val_main_v25_apply, val_main_v24_apply, val_main_v26_apply, val_main_cst_5_apply]
  simp only [lidx24, ridx24, scaled_apply]
  rfl

/-- The same against the second normalized table. -/
theorem hitU_apply (n : Fin 200000) (p : Fin 256) :
    val_main_v32 (F := Ideal) x1 x2 (ix2 n p) = hit (tableOf (val_main_v23 (F := Ideal) x1)) (rowOf x2 n) p := by
  rw [val_main_v32_apply, val_main_v30_apply, val_main_v29_apply, val_main_v31_apply, val_main_cst_6_apply]
  simp only [lidx29, ridx29, scaled_apply]
  rfl

/-! ## "Some hit" and the count -/

theorem reduces256 : S200000x256.Reduces [(1 : Fin 2)] S200000 := by decide

theorem lift256 (n : Fin 200000) (p : Fin 256) : reduces256.lift (ix1 n) p = ix2 n p :=
  funext fun a => Fin.ext (by match a with | ⟨0, _⟩ => rfl | ⟨1, _⟩ => rfl)

/-- The `or` of row `n`'s bits is `1` exactly when the first table has a hit. -/
theorem any_apply (n : Fin 200000) :
    val_main_v28 (F := Ideal) x0 x2 (ix1 n) = 1#1 ↔ ∃ p, hit (tableOf (val_main_v15 (F := Ideal) x0)) (rowOf x2 n) p = 1#1 := by
  have e : (val_main_v27 (F := Ideal) x0 x2 ∘ reduces256.lift (ix1 n))
      = fun p : Fin 256 => hit (tableOf (val_main_v15 (F := Ideal) x0)) (rowOf x2 n) p := by
    refine funext fun (p : Fin 256) => ?_
    exact (congrArg (val_main_v27 (F := Ideal) x0 x2) (lift256 n p)).trans (hitL_apply x0 x2 n p)
  have hfold : val_main_v28 (F := Ideal) x0 x2 (ix1 n)
      = (Finset.univ : Finset (Fin 256)).fold IntOp.ori 0#1 (fun p => hit (tableOf (val_main_v15 (F := Ideal) x0)) (rowOf x2 n) p) := by
    unfold val_main_v28
    refine (Host.reduce_eq_fold_single IntOp.ori _ _ reducesTo_S200000x256_S200000_d1 reduces256 h_S_ (ix1 n)).trans ?_
    exact congrArg (fun f => (Finset.univ : Finset (Fin 256)).fold IntOp.ori 0#1 f) e
  rw [hfold, IndicatorFolds.fold_ori_eq_one_iff]
  simp

/-- The 32-bit sum of row `n`'s widened bits, read signed, is the number of hits in the second table. -/
theorem count_apply (n : Fin 200000) :
    (val_main_v34 (F := Ideal) x1 x2 (ix1 n)).toInt = (hits (tableOf (val_main_v23 (F := Ideal) x1)) (rowOf x2 n) : ℤ) := by
  have e : (val_main_v33 (F := Ideal) x1 x2 ∘ reduces256.lift (ix1 n))
      = fun p : Fin 256 => (hit (tableOf (val_main_v23 (F := Ideal) x1)) (rowOf x2 n) p).setWidth 32 := by
    refine funext fun (p : Fin 256) => ?_
    refine (congrArg (val_main_v33 (F := Ideal) x1 x2) (lift256 n p)).trans ?_
    rw [val_main_v33_apply, hitU_apply]
  have hfold : val_main_v34 (F := Ideal) x1 x2 (ix1 n)
      = (Finset.univ : Finset (Fin 256)).fold IntOp.addi 0#32
          (fun p => (hit (tableOf (val_main_v23 (F := Ideal) x1)) (rowOf x2 n) p).setWidth 32) := by
    unfold val_main_v34
    refine (Host.reduce_eq_fold_single IntOp.addi _ _ reducesTo_S200000x256_S200000_d1 reduces256 h_S_ (ix1 n)).trans ?_
    exact congrArg (fun f => (Finset.univ : Finset (Fin 256)).fold IntOp.addi 0#32 f) e
  rw [hfold]
  exact IndicatorFolds.toInt_fold_addi_setWidth Finset.univ _ (by simp)

/-! ## The two results -/

theorem col_idx (n : Fin 200000) (d : Fin 128) : idx_main_v37 (idx_main_v38 (ix2 n d)) = ix1 n :=
  funext fun a => Fin.ext (by match a with | ⟨0, _⟩ => rfl)
theorem col_idx' (n : Fin 200000) (d : Fin 128) : idx_main_v41 (idx_main_v42 (ix2 n d)) = ix1 n :=
  funext fun a => Fin.ext (by match a with | ⟨0, _⟩ => rfl)

/-- The reference's second result. -/
theorem resL_eq : val_main_v39 (F := Ideal) x0 x2 = resL (val_main_v15 (F := Ideal) x0) x2 := by
  funext i
  obtain ⟨n, d, rfl⟩ : ∃ (n : Fin 200000) (d : Fin 128), i = ix2 n d := ⟨i 0, i 1, eq_ix2 i⟩
  rw [val_main_v39_apply, val_main_v38_apply, val_main_v37_apply, val_main_v36_apply, col_idx]
  show x2 (ix2 n d) * (((val_main_v28 (F := Ideal) x0 x2 (ix1 n)).toNat : ℝ) : EReal)
    = x2 (ix2 n d) * wL (tableOf (val_main_v15 (F := Ideal) x0)) (rowOf x2 n)
  rw [wL_of_toNat _ _ _ (any_apply x0 x2 n)]

/-- The reference's first result. -/
theorem resU_eq : val_main_v43 (F := Ideal) x0 x1 x2
    = resU (val_main_v15 (F := Ideal) x0) (val_main_v23 (F := Ideal) x1) x2 := by
  funext i
  obtain ⟨n, d, rfl⟩ : ∃ (n : Fin 200000) (d : Fin 128), i = ix2 n d := ⟨i 0, i 1, eq_ix2 i⟩
  rw [val_main_v43_apply, val_main_v42_apply, val_main_v41_apply, val_main_v40_apply, col_idx', val_main_v35_apply,
    val_main_call0_v1_apply, val_main_call0_v0_apply, val_main_c_8_apply]
  show x2 (ix2 n d) * (((Scalar.select (val_main_v28 (F := Ideal) x0 x2 (ix1 n)) (0#32 : BitVec 32)
      (val_main_v34 (F := Ideal) x1 x2 (ix1 n))).toInt : ℝ) : EReal)
    = x2 (ix2 n d) * wU (tableOf (val_main_v15 (F := Ideal) x0)) (tableOf (val_main_v23 (F := Ideal) x1)) (rowOf x2 n)
  rw [wU_of_word _ _ _ _ _ (any_apply x0 x2 n) (count_apply x1 x2 n)]

end Cert.ReferenceIdeal.RefValue

end
-- ==== Proof.lean ====
/-
  Two candidate lists as weighted copies of the inputs: the kernel against its reference, over the extended reals.

  Each of the 200000 input rows is scaled to unit length (its squared length kept at least `eps`) and compared with two
  tables of 256 prototypes, themselves scaled to unit length by the host: the LOSS of a row against a prototype is minus
  their inner product, and the prototype is a HIT when the loss is at least the threshold. The second result is each
  input row times `1` if the first table has a hit and `0` otherwise; the first result is each input row times the number
  of hits in the second table, or times `0` if the first table has a hit.

  The kernel does this 4000 rows at a time against the two tables stacked into one 512-row table: one product of the
  scaled rows with the stacked table, `0` minus it, the left and right halves compared; "some hit" as "the maximum of the
  0/1 indicators over the row is positive", the count as the sum of the 0/1 indicators, both as floats. The reference
  works on whole arrays with two products: "some hit" as the `or` of the row's bits, the count as a 32-bit integer sum
  converted to a float at the end. On the extended reals these are the same numbers: `0 - s = -s`; a maximum of 0/1
  values taken from `-∞` is positive exactly when one of them is `1`; a sum of 0/1 indicators is the number of ones, and so is
  the integer sum, which cannot wrap below 2^31 terms. No law used here needs the inputs to be finite, so the
  precondition is never opened.

  `Spec` states the two results as functions of the normalized tables and the inputs; `KernelBody` reads the kernel's
  body at an index and `KernelArray` carries the 50 blocks to the whole arrays; `RefValue` reads the reference.
  Both programs normalize the prototypes by the same seven host operations, so the tables agree as terms.
-/
import proofs.«133422_j51101520888168_2_alg».proof.Defs
import proofs.«133422_j51101520888168_2_alg».proof.Proof.Gen.Kernel
import proofs.«133422_j51101520888168_2_alg».proof.Proof.Gen.Kernel.Skeleton
import proofs.«133422_j51101520888168_2_alg».proof.Proof.Gen.Kernel.Launch
import proofs.«133422_j51101520888168_2_alg».proof.Proof.Gen.Kernel.Points
import proofs.«133422_j51101520888168_2_alg».proof.Proof.Gen.Kernel.Frame
import proofs.«133422_j51101520888168_2_alg».proof.Proof.Gen.KernelIdeal
import proofs.«133422_j51101520888168_2_alg».proof.Proof.Gen.KernelIdeal.Skeleton
import proofs.«133422_j51101520888168_2_alg».proof.Proof.Gen.KernelIdeal.Launch
import proofs.«133422_j51101520888168_2_alg».proof.Proof.Gen.KernelIdeal.Points
import proofs.«133422_j51101520888168_2_alg».proof.Proof.Gen.KernelIdeal.Frame
import proofs.«133422_j51101520888168_2_alg».proof.Proof.Gen.ReferenceIdeal
import proofs.«133422_j51101520888168_2_alg».proof.Proof.Gen.Pre_finite_inputs
import proofs.«133422_j51101520888168_2_alg».proof.Proof.KernelArray
import proofs.«133422_j51101520888168_2_alg».proof.Proof.RefValue
import Idealize.ShloMosaic.Adequacy
import Idealize.ShloMosaic.Init

noncomputable section

namespace Cert.Proof

open Idealize.ShloMosaic Idealize.ShloMosaic.TcCoe Idealize.SL.Sem Candidates

/-- The kernel's program runs and leaves its arguments as they were. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference is a straight line of host operations: its run, with the results dropped. -/
theorem frame_reference : Cert.frame_ReferenceIdeal := fun m ρ _ =>
  (θ_run Cert.ReferenceIdeal.defs _ _).mono (fun _ h c => (h c).2.2) (Cert.ReferenceIdeal.RunP.run (F := Ideal) m ρ)

/-- The two programs normalize a prototype table by the same host operations. -/
theorem normRows_eq (A : (⟨Cert.ReferenceIdeal.S256x128, .f32⟩ : BufTy).Contents (Elt Ideal)) :
    Cert.ReferenceIdeal.ReadP.val_main_v15 (F := Ideal) A = Cert.KernelIdeal.Arrays.normRows A := rfl
theorem normRows_eq' (A : (⟨Cert.ReferenceIdeal.S256x128, .f32⟩ : BufTy).Contents (Elt Ideal)) :
    Cert.ReferenceIdeal.ReadP.val_main_v23 (F := Ideal) A = Cert.KernelIdeal.Arrays.normRows A := rfl

/-- From memories that agree on the arguments both programs end with the first result at `resU` and the second at
    `resL` of the normalized tables and the inputs. -/
theorem algebraic : Cert.algebraic_KernelIdeal_ReferenceIdeal := by
  intro m ρ m' ρ' _ hagree
  refine ⟨fun c => resU (Cert.KernelIdeal.Arrays.NL m c) (Cert.KernelIdeal.Arrays.NU m c) (Cert.KernelIdeal.Arrays.X m c),
    fun c => resL (Cert.KernelIdeal.Arrays.NL m c) (Cert.KernelIdeal.Arrays.X m c),
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.RunP.run (F := Ideal) m' ρ')
  · rw [Cert.ReferenceIdeal.ReadP.val_main_v43_eq, Cert.ReferenceIdeal.RefValue.resU_eq, normRows_eq, normRows_eq',
      (hagree c).1, (hagree c).2.1, (hagree c).2.2]
    rfl
  · rw [Cert.ReferenceIdeal.ReadP.val_main_v39_eq, Cert.ReferenceIdeal.RefValue.resL_eq, normRows_eq,
      (hagree c).1, (hagree c).2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
